-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S16384x3072 : Shape := ⟨2, ![16384, 3072]⟩
abbrev S16384 : Shape := ⟨1, ![16384]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S16384x3072 : S_.BroadcastsInDim S16384x3072 (![] : Fin 0 → Fin S16384x3072.rank)
  reducesTo_S16384x3072_S_d0_1 : S16384x3072.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg4 : FVec F S16384 .f32) (main_v13 : IVec S_ 1) (main_v16 : IVec S16384x3072 1) : IVec S_ 1 :=
  let main_c_5 : IVec S_ 1 := constantI S_ 1 1#1
  let main_v17 : IVec S_ 1 := (fun x v => Host.reduce IntOp.andi x v reducesTo_S16384x3072_S_d0_1 h_S_) main_v16 main_c_5
  let main_v18 : IVec S_ 1 := andi main_v13 main_v17
  let main_v19 : FVec F S16384 .f32 := Host.absf main_arg4
  let main_cst_6 : FVec F S_ .f32 := constant S_ .f32 0x7F800000#32
  let main_v20 : FVec F S16384 .f32 := broadcastInDim S16384 ![] bcast_S_S16384 main_cst_6
  let main_v21 : IVec S16384 1 := cmpf .olt main_v19 main_v20
  let main_c_7 : IVec S_ 1 := constantI S_ 1 1#1
  let main_v22 : IVec S_ 1 := (fun x v => Host.reduce IntOp.andi x v reducesTo_S16384_S_d0 h_S_) main_v21 main_c_7
  let main_v23 : IVec S_ 1 := andi main_v18 main_v22
  main_v23

def fn {F : FTy → Type} [FloatOps F] (main_arg0 : FVec F S4x2048x1024 .f32) (main_arg1 : FVec F S4x2048x1024 .f32) (main_arg2 : FVec F S4x2048x1024 .f32) (main_arg3 : FVec F S16384x3072 .f32) (main_arg4 : FVec F S16384 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S16384x3072 .f32 := Host.absf main_arg3
  let main_cst_4 : FVec F S_ .f32 := constant S_ .f32 0x7F800000#32
  let main_v15 : FVec F S16384x3072 .f32 := broadcastInDim S16384x3072 ![] bcast_S_S16384x3072 main_cst_4
  let main_v16 : IVec S16384x3072 1 := cmpf .olt main_v14 main_v15
  fn_part1 (F := F) main_arg4 main_v13 main_v16
-- ==== Kernel.lean ====
abbrev S4x2048x1024 : Shape := ⟨3, ![4, 2048, 1024]⟩
abbrev S16384x3072 : Shape := ⟨2, ![16384, 3072]⟩
abbrev S16384 : Shape := ⟨1, ![16384]⟩
abbrev S1024x16x3072 : Shape := ⟨3, ![1024, 16, 3072]⟩
abbrev S_ : Shape := ⟨0, ![]⟩
abbrev S1024x3072 : Shape := ⟨2, ![1024, 3072]⟩
abbrev S1024x16 : Shape := ⟨2, ![1024, 16]⟩
abbrev S1024 : Shape := ⟨1, ![1024]⟩
abbrev S1x1024 : Shape := ⟨2, ![1, 1024]⟩
abbrev S1024x1024 : Shape := ⟨2, ![1024, 1024]⟩
abbrev S8192x1024 : Shape := ⟨2, ![8192, 1024]⟩
abbrev S512x1024 : Shape := ⟨2, ![512, 1024]⟩

abbrev nBuf : Space → Nat
  | .hbm => 20
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S16384x3072, .f32⟩
  | .hbm, ⟨4, _⟩ => ⟨S16384, .f32⟩
  | .hbm, ⟨5, _⟩ => ⟨S1024x16x3072, .f32⟩
  | .hbm, ⟨6, _⟩ => ⟨S_, .f32⟩
  | .hbm, ⟨7, _⟩ => ⟨S1024x3072, .f32⟩
  | .hbm, ⟨8, _⟩ => ⟨S1024x16, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S16384x3072_S1024x16x3072 : S16384x3072.ShapeCasts S1024x16x3072
  reducesTo_S1024x16x3072_S1024x3072_d1 : S1024x16x3072.ReducesTo [1] S1024x3072
  h_S_ : 0 < S_.numel
  shapeCasts_S16384_S1024x16 : S16384.ShapeCasts S1024x16
  reducesTo_S1024x16_S1024_d1 : S1024x16.ReducesTo [1] S1024
  shapeCasts_S1024_S1x1024 : S1024.ShapeCasts S1x1024
  slices_S1024x3072_S1024x1024_0_0 : S1024x3072.Slices ![0, 0] S1024x1024
  slices_S1024x3072_S1024x1024_0_1024 : S1024x3072.Slices ![0, 1024] S1024x1024
  slices_S1024x3072_S1024x1024_0_2048 : S1024x3072.Slices ![0, 2048] S1024x1024
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S4x2048x1024 : S8192x1024.ShapeCasts S4x2048x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .f32 = 32 ∨ (Rect.block (s := S1024x1024) S1024x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v8) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S16384x3072 : Shape := ⟨2, ![16384, 3072]⟩
abbrev S16384 : Shape := ⟨1, ![16384]⟩
abbrev S4x2048x3072 : Shape := ⟨3, ![4, 2048, 3072]⟩
abbrev S4x2048x16384 : Shape := ⟨3, ![4, 2048, 16384]⟩
abbrev S1x1x16384 : Shape := ⟨3, ![1, 1, 16384]⟩
abbrev S4x2048x1024x16 : Shape := ⟨4, ![4, 2048, 1024, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S16384x3072, .f32⟩
  | .hbm, ⟨4, _⟩ => ⟨S16384, .f32⟩
  | .hbm, ⟨5, _⟩ => ⟨S4x2048x3072, .f32⟩
  | .hbm, ⟨6, _⟩ => ⟨S4x2048x16384, .f32⟩
  | .hbm, ⟨7, _⟩ => ⟨S1x1x16384, .f32⟩
  | .hbm, ⟨8, _⟩ => ⟨S4x2048x16384, .f32⟩
  | .hbm, ⟨9, _⟩ => ⟨S4x2048x16384, .f32⟩
  | .hbm, ⟨10, _⟩ => ⟨S4x2048x1024x16, .f32⟩
  | .hbm, ⟨11, _⟩ => ⟨S_, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  concatenates_S4x2048x1024_S4x2048x1024_S4x2048x1024_S4x2048x3072_d2 : Shape.Concatenates [S4x2048x1024, S4x2048x1024, S4x2048x1024] S4x2048x3072 2
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  shapeCasts_S4x2048x16384_S4x2048x1024x16 : S4x2048x16384.ShapeCasts S4x2048x1024x16
  reducesTo_S4x2048x1024x16_S4x2048x1024_d3 : S4x2048x1024x16.ReducesTo [3] S4x2048x1024
  h_S_ : 0 < S_.numel
  dot_S4x2048x3072_S16384x3072_S4x2048x16384_2_1_01_0_n_n_wf : DotDims.WF S4x2048x3072 S16384x3072 S4x2048x16384 [2] [1] [0, 1] [0] [] []

variable [Facts₀]

def dot_S4x2048x3072_S16384x3072_S4x2048x16384_2_1_01_0_n_n : DotDims S4x2048x3072 S16384x3072 S4x2048x16384 where
  lhsContracting := [2]
  rhsContracting := [1]
  lhsNonContracting := [0, 1]
  rhsNonContracting := [0]
  lhsBatch := []
  rhsBatch := []
  wf := dot_S4x2048x3072_S16384x3072_S4x2048x16384_2_1_01_0_n_n_wf

class Facts : Prop extends Facts₀ where

variable [Facts]
-- ==== Proof.LibDenseEdges.lean ====
/-
  A dense matrix assembled from an edge list, applied to a column, against the edgewise sum.

  Edges e carry a weight a_e, a target r_e and a source c_e.  The dense matrix has entry
  (n, k) = ∑ of a_e over the edges with r_e = n and c_e = k  (parallel edges add up).  Applying it to a
  column t gives, at row n,  ∑_k L(n, k) · t_k.  The edgewise form aggregates at the target directly:
  ∑ of a_e · t_{c_e} over the edges with r_e = n.  The two agree because a product distributes over a finite
  sum — which on the extended reals needs every weight and every entry of the column to be a real number:
  with a weight +∞ beside a weight −∞ on parallel edges, or an infinite entry of t against weights that cancel,
  the two sides differ.  So the identity is stated for real-valued data, and the closure lemmas below are what
  carries "every entry is a real number" through sums, products, negation and maxima.
-/
import Idealize.ShloMosaic.PureOps.Ideal.Laws

noncomputable section

open scoped BigOperators

namespace Cert.DenseEdges

/-! ## Extended reals that are real numbers -/

/-- An extended real that is a real number (neither infinity). -/
def IsReal (x : EReal) : Prop := ∃ r : ℝ, x = (r : EReal)

theorem isReal_of_ne {x : EReal} (hb : x ≠ ⊥) (ht : x ≠ ⊤) : IsReal x :=
  ⟨x.toReal, (EReal.coe_toReal ht hb).symm⟩

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

theorem isReal_zero : IsReal 0 := ⟨0, EReal.coe_zero.symm⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.neg {x : EReal} (hx : IsReal x) : IsReal (-x) := by
  obtain ⟨r, rfl⟩ := hx; exact ⟨-r, (EReal.coe_neg r).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

/-- A finite sum of real numbers is a real number. -/
theorem isReal_sum {ι : Type*} (s : Finset ι) (f : ι → EReal) (h : ∀ i ∈ s, IsReal (f i)) :
    IsReal (∑ i ∈ s, f i) := by
  classical
  refine Finset.induction_on s (fun _ => ?_) (fun i s hi ih h => ?_) h
  · rw [Finset.sum_empty]; exact isReal_zero
  · rw [Finset.sum_insert hi]
    exact (h i (Finset.mem_insert_self i s)).add (ih fun j hj => h j (Finset.mem_insert_of_mem hj))

/-! ## The dense form against the edgewise form -/

/-- Over the reals: summing the dense matrix's row n against the column is summing, over the edges into n, the
    weight times the column's entry at the edge's source. -/
theorem real_dense_eq_edges {E N : Type*} [Fintype E] [Fintype N] [DecidableEq N]
    (r c : E → N) (a : E → ℝ) (t : N → ℝ) (n : N) :
    ∑ k, (∑ e ∈ Finset.univ.filter (fun e => r e = n ∧ c e = k), a e) * t k
      = ∑ e ∈ Finset.univ.filter (fun e => r e = n), a e * t (c e) := by
  simp only [Finset.sum_mul, Finset.sum_filter]
  rw [Finset.sum_comm]
  refine Finset.sum_congr rfl fun e _ => ?_
  by_cases h : r e = n
  · simp only [h, true_and, if_true, ite_mul, zero_mul]
    rw [Finset.sum_ite_eq Finset.univ (c e) (fun k => a e * t k)]
    simp
  · simp only [h, false_and, if_false, zero_mul, Finset.sum_const_zero]

/-- THE IDENTITY over the extended reals, for real-valued weights and a real-valued column: row n of the dense
    matrix (each entry the zero it was initialised with plus its parallel edges' weights) against the column
    equals the zero plus the edgewise sum at the target n. -/
theorem dense_eq_edges {E N : Type*} [Fintype E] [Fintype N] [DecidableEq N]
    (r c : E → N) (a : E → EReal) (t : N → EReal)
    (ha : ∀ e, IsReal (a e)) (ht : ∀ k, IsReal (t k)) (n : N) :
    ∑ k, ((0 : EReal) + ∑ e ∈ Finset.univ.filter (fun e => r e = n ∧ c e = k), a e) * t k
      = (0 : EReal) + ∑ e ∈ Finset.univ.filter (fun e => r e = n), a e * t (c e) := by
  choose a' ha' using ha
  choose t' ht' using ht
  simp only [ha', ht', zero_add, ← coe_sum, ← EReal.coe_mul]
  exact congrArg _ (real_dense_eq_edges r c a' t' n)

/-- The dense product's entries are real numbers when the weights and the column are. -/
theorem isReal_dense {E N : Type*} [Fintype E] [Fintype N] [DecidableEq N]
    (r c : E → N) (a : E → EReal) (t : N → EReal)
    (ha : ∀ e, IsReal (a e)) (ht : ∀ k, IsReal (t k)) (n : N) :
    IsReal (∑ k, ((0 : EReal) + ∑ e ∈ Finset.univ.filter (fun e => r e = n ∧ c e = k), a e) * t k) :=
  isReal_sum _ _ fun k _ => (isReal_zero.add (isReal_sum _ _ fun e _ => ha e)).mul (ht k)

end Cert.DenseEdges

end
-- ==== Proof.LibBlockSum.lean ====
/-
  Sums over an index range cut into equal blocks, in any commutative additive monoid (the extended reals are one:
  addition there is commutative and associative, infinities included, so no finiteness is asked).

  An index below nb * bs is position r of block b, k = b * bs + r. A sum over all k is the sum over the blocks of
  each block's sum (sum_fin_blocks); and a running total that takes the blocks one after the other, block 0 first,
  has after block n the sum of blocks 0 .. n (acc_eq_sum_range), so after the last block the whole sum
  (sum_range_blocks). This is what a matrix product accumulated over column blocks computes, entry by entry.
-/
import Mathlib.Algebra.BigOperators.Fin
import Mathlib.Algebra.BigOperators.Intervals
import Mathlib.Logic.Equiv.Fin.Basic

namespace BlockSum

open Finset

variable {M : Type*} [AddCommMonoid M]

/-- Position r of block b is below nb * bs when b is below nb. -/
theorem pos_lt {nb bs : ℕ} (b : Fin nb) (r : Fin bs) : b.val * bs + r.val < nb * bs := by
  have h1 : (b.val + 1) * bs ≤ nb * bs := Nat.mul_le_mul_right bs b.isLt
  have h2 : b.val * bs + r.val < (b.val + 1) * bs := by rw [Nat.succ_mul]; exact Nat.add_lt_add_left r.isLt _
  exact lt_of_lt_of_le h2 h1

/-- A sum over nb * bs indices is the sum over the nb blocks of the sum over each block's bs positions. -/
theorem sum_fin_blocks (nb bs : ℕ) (f : Fin (nb * bs) → M) :
    ∑ k, f k = ∑ b : Fin nb, ∑ r : Fin bs, f ⟨b.val * bs + r.val, pos_lt b r⟩ := by
  rw [← Equiv.sum_comp finProdFinEquiv f, Fintype.sum_prod_type]
  refine Finset.sum_congr rfl fun b _ => Finset.sum_congr rfl fun r _ => congrArg f (Fin.ext ?_)
  show r.val + bs * b.val = b.val * bs + r.val
  rw [Nat.mul_comm, Nat.add_comm]

/-- Position r of block b as an index below nb * bs, wrapped around so that it is defined for every natural b. -/
def pos (nb bs : ℕ) (h : 0 < nb * bs) (b : ℕ) (r : Fin bs) : Fin (nb * bs) :=
  ⟨(b * bs + r.val) % (nb * bs), Nat.mod_lt _ h⟩

/-- Below nb blocks nothing wraps. -/
theorem pos_eq (nb bs : ℕ) (h : 0 < nb * bs) (b : Fin nb) (r : Fin bs) :
    pos nb bs h b.val r = ⟨b.val * bs + r.val, pos_lt b r⟩ :=
  Fin.ext (Nat.mod_eq_of_lt (pos_lt b r))

/-- The blocks taken one after the other: the sum of the first nb block sums is the whole sum. -/
theorem sum_range_blocks (nb bs : ℕ) (h : 0 < nb * bs) (f : Fin (nb * bs) → M) :
    ∑ b ∈ range nb, ∑ r : Fin bs, f (pos nb bs h b r) = ∑ k, f k := by
  rw [Finset.sum_range, sum_fin_blocks]
  exact Finset.sum_congr rfl fun b _ => Finset.sum_congr rfl fun r _ => by rw [pos_eq]

end BlockSum
-- ==== Proof.LibSumRowsFirst.lean ====
/-
  Summing rows before a product instead of after it, over the extended reals.

  K rows, each holding three weight vectors wx_k, wy_k, wz_k of length n and a bias β_k, meet three data vectors
  x, y, z of length n. Each row contributes ⟨x, wx_k⟩ + ⟨y, wy_k⟩ + ⟨z, wz_k⟩ + β_k; the K contributions are summed
  from a zero. Summing the rows first — Σ_k wx_k, Σ_k wy_k, Σ_k wz_k, Σ_k β_k, each from a zero — and taking the three
  products afterwards gives the same number, because a product distributes over a finite sum and sums commute.
  On the extended reals distributivity fails at infinities (x · (+∞ + −∞) against x·(+∞) + x·(−∞)), so the law
  (`reduce_first`) is stated for data that are real numbers; it is proved over ℝ (`real_reduce_first`) and carried
  across the coercion. n and K are arbitrary.
-/
import proofs.«177009_j69303592288826_2_alg».proof.Proof.LibDenseEdges

noncomputable section

namespace Cert.SumRowsFirst

open Cert.DenseEdges
open scoped BigOperators

/-- Over the reals: a double sum of products with one factor depending on the inner index only. -/
theorem real_swap {n K : ℕ} (x : Fin n → ℝ) (w : Fin K → Fin n → ℝ) :
    ∑ k, ∑ c, x c * w k c = ∑ c, x c * ∑ k, w k c := by
  rw [Finset.sum_comm]
  exact Finset.sum_congr rfl fun c _ => (Finset.mul_sum _ _ _).symm

/-- Over the reals: the K rows summed after the products, or before them. -/
theorem real_reduce_first {n K : ℕ} (x y z : Fin n → ℝ) (wx wy wz : Fin K → Fin n → ℝ) (β : Fin K → ℝ) :
    ∑ k, ((((∑ c, x c * wx k c) + (∑ c, y c * wy k c)) + (∑ c, z c * wz k c)) + β k)
      = (((∑ c, x c * ∑ k, wx k c) + (∑ c, y c * ∑ k, wy k c)) + (∑ c, z c * ∑ k, wz k c)) + ∑ k, β k := by
  simp only [Finset.sum_add_distrib, real_swap]

/-- THE LAW over the extended reals, for real-valued data: the K rows' terms (three products and a bias each) summed
    from zero equal the three products against the rows summed from zero, plus the biases summed from zero. -/
theorem reduce_first {n K : ℕ} (x y z : Fin n → EReal) (wx wy wz : Fin K → Fin n → EReal) (β : Fin K → EReal)
    (hx : ∀ c, IsReal (x c)) (hy : ∀ c, IsReal (y c)) (hz : ∀ c, IsReal (z c))
    (hwx : ∀ k c, IsReal (wx k c)) (hwy : ∀ k c, IsReal (wy k c)) (hwz : ∀ k c, IsReal (wz k c))
    (hβ : ∀ k, IsReal (β k)) :
    (0 : EReal) + ∑ k, ((((∑ c, x c * wx k c) + (∑ c, y c * wy k c)) + (∑ c, z c * wz k c)) + β k)
      = ((((∑ c, x c * ((0 : EReal) + ∑ k, wx k c)) + (∑ c, y c * ((0 : EReal) + ∑ k, wy k c)))
          + (∑ c, z c * ((0 : EReal) + ∑ k, wz k c))) + ((0 : EReal) + ∑ k, β k)) := by
  choose x' hx' using hx
  choose y' hy' using hy
  choose z' hz' using hz
  choose wx' hwx' using hwx
  choose wy' hwy' using hwy
  choose wz' hwz' using hwz
  choose β' hβ' using hβ
  simp only [hx', hy', hz', hwx', hwy', hwz', hβ', zero_add, ← coe_sum, ← EReal.coe_mul, ← EReal.coe_add]
  exact congrArg _ (real_reduce_first x' y' z' wx' wy' wz' β')

end Cert.SumRowsFirst

end
-- ==== Proof.Hyper.lean ====
/-
  The hypernetwork layer as one function of the argument arrays, and the two laws of finite sums that join its two
  arrangements.

  x, y, z are [4, 2048, 1024] arrays, W a [16384, 3072] array and β a [16384] vector. Output feature d (of 1024) owns
  the 16 consecutive rows 16·d + k of W and entries of β. For a sample (b, l) write row f of W as three segments of
  1024 columns, one for each of x, y, z. The layer's entry (b, l, d) is

      ( ∑_k ( ⟨x[b,l,·], W[16d+k, 0:1024]⟩ + ⟨y[b,l,·], W[16d+k, 1024:2048]⟩ + ⟨z[b,l,·], W[16d+k, 2048:3072]⟩ + β[16d+k] ) )
        · ( x[b,l,d] · y[b,l,d] ).

  Summing the 16 rows of W (and the 16 entries of β) FIRST and multiplying afterwards gives the same number, because a
  product distributes over a finite sum. On the extended reals that needs every factor to be a real number, so that
  law (`Cert.SumRowsFirst.reduce_first`, in its own module) is stated for real-valued data; splitting a sum over 3072
  columns into its three segments (`sum_three_segments`) needs nothing.
-/
import Idealize.ShloMosaic.PureOps.Ideal
import Idealize.ShloMosaic.Lib.ValueIdx
import proofs.«177009_j69303592288826_2_alg».proof.Proof.LibDenseEdges
import proofs.«177009_j69303592288826_2_alg».proof.Proof.LibBlockSum
import proofs.«177009_j69303592288826_2_alg».proof.Proof.LibSumRowsFirst

noncomputable section

namespace Cert.Hyper

open Idealize.ShloMosaic Idealize.ShloMosaic.ValueIdx Cert.DenseEdges
open scoped BigOperators

/-! ## Indices -/

/-- Row 16·d + k of W: the k-th of the 16 rows that belong to output feature d. -/
def feat (d : Fin 1024) (k : Fin 16) : Fin 16384 := ⟨d.val * 16 + k.val, by have := d.isLt; have := k.isLt; omega⟩

/-- Column c of the first segment (the one that meets x). -/
def seg0 (c : Fin 1024) : Fin 3072 := ⟨c.val, by have := c.isLt; omega⟩
/-- Column c of the second segment (the one that meets y). -/
def seg1 (c : Fin 1024) : Fin 3072 := ⟨1024 + c.val, by have := c.isLt; omega⟩
/-- Column c of the third segment (the one that meets z). -/
def seg2 (c : Fin 1024) : Fin 3072 := ⟨2048 + c.val, by have := c.isLt; omega⟩

/-! ## The layer -/

/-- One row of W against one sample: the three segment products and the bias. -/
def rowTerm (x y z : (⟨3, ![4, 2048, 1024]⟩ : Shape).Idx → EReal) (W : (⟨2, ![16384, 3072]⟩ : Shape).Idx → EReal)
    (β : (⟨1, ![16384]⟩ : Shape).Idx → EReal) (b : Fin 4) (l : Fin 2048) (f : Fin 16384) : EReal :=
  (((∑ c : Fin 1024, x (ix3 b l c) * W (ix2 f (seg0 c))) + (∑ c : Fin 1024, y (ix3 b l c) * W (ix2 f (seg1 c))))
    + (∑ c : Fin 1024, z (ix3 b l c) * W (ix2 f (seg2 c)))) + β (ix1 f)

/-- Entry (b, l, d) of the layer. -/
def hyperAt (x y z : (⟨3, ![4, 2048, 1024]⟩ : Shape).Idx → EReal) (W : (⟨2, ![16384, 3072]⟩ : Shape).Idx → EReal)
    (β : (⟨1, ![16384]⟩ : Shape).Idx → EReal) (b : Fin 4) (l : Fin 2048) (d : Fin 1024) : EReal :=
  (0 + ∑ k : Fin 16, rowTerm x y z W β b l (feat d k)) * (x (ix3 b l d) * y (ix3 b l d))

/-- The whole [4, 2048, 1024] array. -/
def hyper (x y z : (⟨3, ![4, 2048, 1024]⟩ : Shape).Idx → EReal) (W : (⟨2, ![16384, 3072]⟩ : Shape).Idx → EReal)
    (β : (⟨1, ![16384]⟩ : Shape).Idx → EReal) : (⟨3, ![4, 2048, 1024]⟩ : Shape).Idx → EReal :=
  fun i => hyperAt x y z W β (i 0) (i 1) (i 2)

theorem hyper_apply (x y z : (⟨3, ![4, 2048, 1024]⟩ : Shape).Idx → EReal) (W : (⟨2, ![16384, 3072]⟩ : Shape).Idx → EReal)
    (β : (⟨1, ![16384]⟩ : Shape).Idx → EReal) (b : Fin 4) (l : Fin 2048) (d : Fin 1024) :
    hyper x y z W β (ix3 b l d) = hyperAt x y z W β b l d := rfl

/-! ## A sum over 3072 columns is the sum of its three segments -/

theorem sum_three_segments {M : Type*} [AddCommMonoid M] (g : Fin 3072 → M) :
    ∑ c, g c = ((∑ c : Fin 1024, g (seg0 c)) + (∑ c : Fin 1024, g (seg1 c))) + (∑ c : Fin 1024, g (seg2 c)) := by
  have h := BlockSum.sum_fin_blocks 3 1024 (g : Fin (3 * 1024) → M)
  rw [Fin.sum_univ_three] at h
  refine h.trans ?_
  refine congrArg₂ (· + ·) (congrArg₂ (· + ·) ?_ ?_) ?_
  · exact Finset.sum_congr rfl fun c _ => congrArg g (Fin.ext (by show 0 * 1024 + c.val = c.val; omega))
  · exact Finset.sum_congr rfl fun c _ => congrArg g (Fin.ext (by show 1 * 1024 + c.val = 1024 + c.val; omega))
  · exact Finset.sum_congr rfl fun c _ => congrArg g (Fin.ext (by show 2 * 1024 + c.val = 2048 + c.val; omega))

end Cert.Hyper

end
-- ==== Proof.Layouts.lean ====
/-
  The arrays the two programs build around the layer, read at an index given by coordinates.

  * W [16384, 3072] viewed [1024, 16, 3072] and summed over its middle axis from a zero: entry (d, col) is
    0 + ∑_k W[16d + k, col] (`rowsSummed_apply`); a block of 1024 of its columns starting at `off` reads column
    off + c (`segment_apply`).
  * β [16384] viewed [1024, 16], summed over its second axis from a zero and viewed as one row [1, 1024]: entry (0, d)
    is 0 + ∑_k β[16d + k] (`biasSummed_apply`).
  * x, y, z joined along their last axis into [4, 2048, 3072]: column c of segment 0, 1, 2 is x, y, z at c
    (`joined_seg0`, `joined_seg1`, `joined_seg2`).
  Every statement takes the shape facts as hypotheses, so it applies to whichever program states them.
-/
import Idealize.ShloMosaic.PureOps.Ideal.Laws
import Idealize.ShloMosaic.Lib.ValueIdx
import Idealize.ShloMosaic.Lib.Pipeline.Value
import proofs.«177009_j69303592288826_2_alg».proof.Proof.Hyper

noncomputable section

namespace Cert.Hyper

open Idealize.ShloMosaic Idealize.ShloMosaic.ValueIdx
open scoped BigOperators

/-! ## The rows of W summed sixteen at a time -/

theorem rowsSummed_apply (W : FVec Ideal ⟨2, ![16384, 3072]⟩ .f32)
    (hc : (⟨2, ![16384, 3072]⟩ : Shape).ShapeCasts ⟨3, ![1024, 16, 3072]⟩)
    (hr : (⟨3, ![1024, 16, 3072]⟩ : Shape).ReducesTo [1] ⟨2, ![1024, 3072]⟩)
    (hu : 0 < (⟨0, ![]⟩ : Shape).numel) (d : Fin 1024) (col : Fin 3072) :
    Host.reduceAdd (shapeCast ⟨3, ![1024, 16, 3072]⟩ W hc) (constant (F := Ideal) ⟨0, ![]⟩ .f32 0x00000000#32) hr hu (ix2 d col)
      = 0 + ∑ k : Fin 16, W (ix2 (feat d k) col) := by
  simp only [Host.reduceAdd, Ideal.hostReduceAdd_def]
  rw [Ideal.hostReduceAdd_single hr (by decide)]
  refine congrArg₂ (· + ·) Ideal.ofBits_zero_f32 (Finset.sum_congr rfl fun k _ => ?_)
  exact shapeCast_apply W hc _ _ (by
    rw [Shape.rowMajor_val_two, Shape.rowMajor_val_three]
    show (d.val * 16 + k.val) * 3072 + col.val = (d.val * 16 + k.val) * 3072 + col.val
    rfl)

/-- A block of 1024 columns of a [1024, 3072] array, starting at column `off`. -/
theorem segment_apply {α : Type} (A : (⟨2, ![1024, 3072]⟩ : Shape).Idx → α) (off : ℕ)
    (hs : (⟨2, ![1024, 3072]⟩ : Shape).Slices ![0, off] ⟨2, ![1024, 1024]⟩) (d c : Fin 1024) (col : Fin 3072)
    (hcol : col.val = off + c.val) :
    extractStridedSlice ⟨2, ![1024, 1024]⟩ ![0, off] A hs (ix2 d c) = A (ix2 d col) :=
  extractStridedSlice_apply _ A hs _ _ (fun a => by
    match a with
    | ⟨0, _⟩ => show d.val = 0 + d.val; omega
    | ⟨1, _⟩ => show col.val = off + c.val; exact hcol)

/-! ## The bias summed sixteen at a time, as one row -/

theorem biasSummed_apply (β : FVec Ideal ⟨1, ![16384]⟩ .f32)
    (hc : (⟨1, ![16384]⟩ : Shape).ShapeCasts ⟨2, ![1024, 16]⟩)
    (hr : (⟨2, ![1024, 16]⟩ : Shape).ReducesTo [1] ⟨1, ![1024]⟩)
    (hu : 0 < (⟨0, ![]⟩ : Shape).numel)
    (hrow : (⟨1, ![1024]⟩ : Shape).ShapeCasts ⟨2, ![1, 1024]⟩) (u : Fin 1) (d : Fin 1024) :
    shapeCast ⟨2, ![1, 1024]⟩
        (Host.reduceAdd (shapeCast ⟨2, ![1024, 16]⟩ β hc) (constant (F := Ideal) ⟨0, ![]⟩ .f32 0x00000000#32) hr hu) hrow (ix2 u d)
      = 0 + ∑ k : Fin 16, β (ix1 (feat d k)) := by
  rw [shapeCast_apply _ hrow (ix2 u d) (ix1 d) (by
    have hu0 : u.val = 0 := by omega
    rw [Shape.rowMajor_val_one, Shape.rowMajor_val_two]
    show d.val = u.val * 1024 + d.val
    rw [hu0]; omega)]
  simp only [Host.reduceAdd, Ideal.hostReduceAdd_def]
  rw [Ideal.hostReduceAdd_single hr (by decide)]
  refine congrArg₂ (· + ·) Ideal.ofBits_zero_f32 (Finset.sum_congr rfl fun k _ => ?_)
  exact shapeCast_apply β hc _ _ (by
    rw [Shape.rowMajor_val_one, Shape.rowMajor_val_two]
    show d.val * 16 + k.val = d.val * 16 + k.val
    rfl)

/-! ## x, y, z joined along the last axis -/

section Joined
variable {α : Type} (x y z : (⟨3, ![4, 2048, 1024]⟩ : Shape).Idx → α)
  (h : Shape.Concatenates [(⟨3, ![4, 2048, 1024]⟩ : Shape), ⟨3, ![4, 2048, 1024]⟩, ⟨3, ![4, 2048, 1024]⟩] ⟨3, ![4, 2048, 3072]⟩ 2)
  (b : Fin 4) (l : Fin 2048) (c : Fin 1024)

theorem joined_seg0 :
    concatenate ⟨3, ![4, 2048, 3072]⟩ 2 [⟨⟨3, ![4, 2048, 1024]⟩, x⟩, ⟨⟨3, ![4, 2048, 1024]⟩, y⟩, ⟨⟨3, ![4, 2048, 1024]⟩, z⟩] h (ix3 b l (seg0 c))
      = x (ix3 b l c) :=
  concatenate_apply_piece (t := ⟨3, ![4, 2048, 3072]⟩) 2
    [⟨⟨3, ![4, 2048, 1024]⟩, x⟩, ⟨⟨3, ![4, 2048, 1024]⟩, y⟩, ⟨⟨3, ![4, 2048, 1024]⟩, z⟩] h (ix3 b l (seg0 c))
    0 (by simp) ⟨3, ![4, 2048, 1024]⟩ x rfl rfl 0 rfl (ix3 b l c)
    (fun a ha => by
      match a with
      | ⟨0, _⟩ => rfl
      | ⟨1, _⟩ => rfl
      | ⟨2, _⟩ => exact absurd rfl ha)
    (by show 0 + c.val = c.val; omega)

theorem joined_seg1 :
    concatenate ⟨3, ![4, 2048, 3072]⟩ 2 [⟨⟨3, ![4, 2048, 1024]⟩, x⟩, ⟨⟨3, ![4, 2048, 1024]⟩, y⟩, ⟨⟨3, ![4, 2048, 1024]⟩, z⟩] h (ix3 b l (seg1 c))
      = y (ix3 b l c) :=
  concatenate_apply_piece (t := ⟨3, ![4, 2048, 3072]⟩) 2
    [⟨⟨3, ![4, 2048, 1024]⟩, x⟩, ⟨⟨3, ![4, 2048, 1024]⟩, y⟩, ⟨⟨3, ![4, 2048, 1024]⟩, z⟩] h (ix3 b l (seg1 c))
    1 (by simp) ⟨3, ![4, 2048, 1024]⟩ y rfl rfl 1024 rfl (ix3 b l c)
    (fun a ha => by
      match a with
      | ⟨0, _⟩ => rfl
      | ⟨1, _⟩ => rfl
      | ⟨2, _⟩ => exact absurd rfl ha)
    (by show 1024 + c.val = 1024 + c.val; rfl)

theorem joined_seg2 :
    concatenate ⟨3, ![4, 2048, 3072]⟩ 2 [⟨⟨3, ![4, 2048, 1024]⟩, x⟩, ⟨⟨3, ![4, 2048, 1024]⟩, y⟩, ⟨⟨3, ![4, 2048, 1024]⟩, z⟩] h (ix3 b l (seg2 c))
      = z (ix3 b l c) :=
  concatenate_apply_piece (t := ⟨3, ![4, 2048, 3072]⟩) 2
    [⟨⟨3, ![4, 2048, 1024]⟩, x⟩, ⟨⟨3, ![4, 2048, 1024]⟩, y⟩, ⟨⟨3, ![4, 2048, 1024]⟩, z⟩] h (ix3 b l (seg2 c))
    2 (by simp) ⟨3, ![4, 2048, 1024]⟩ z rfl rfl 2048 rfl (ix3 b l c)
    (fun a ha => by
      match a with
      | ⟨0, _⟩ => rfl
      | ⟨1, _⟩ => rfl
      | ⟨2, _⟩ => exact absurd rfl ha)
    (by show 2048 + c.val = 2048 + c.val; rfl)

end Joined

end Cert.Hyper

end
-- ==== Proof.RefValue.lean ====
/-
  The reference computes the layer.

  Its stages, outermost first: the product with x·y; the sum over the 16 rows of a feature from a zero; the
  [4, 2048, 16384] array viewed [4, 2048, 1024, 16], whose entry (b, l, d, k) is the flat entry (b, l, 16d + k); the
  bias added; the product of the joined sample [x | y | z] with row f of W, a sum over 3072 columns that splits into
  the three segments. Nothing has to be finite here: only sums are regrouped.
-/
import proofs.«177009_j69303592288826_2_alg».proof.Proof.Gen.ReferenceIdeal.Read
import proofs.«177009_j69303592288826_2_alg».proof.Proof.Layouts

noncomputable section

namespace Cert.Hyper.Ref

open Cert.ReferenceIdeal Cert.ReferenceIdeal.Gen Cert.ReferenceIdeal.Read Cert.Hyper
open Idealize.ShloMosaic Idealize.ShloMosaic.ValueIdx
open scoped BigOperators

variable (x0 x1 x2 : (⟨S4x2048x1024, .f32⟩ : BufTy).Contents (Elt Ideal)) (x3 : (⟨S16384x3072, .f32⟩ : BufTy).Contents (Elt Ideal))
  (x4 : (⟨S16384, .f32⟩ : BufTy).Contents (Elt Ideal))

/-- Entry (b, l, d, k) of the four-axis view is the flat entry (b, l, 16d + k). -/
theorem flat_idx (b : Fin 4) (l : Fin 2048) (d : Fin 1024) (k : Fin 16) :
    idx_main_v5 (idx_main_v6 (ix3 b l d) k) = ix3 b l (feat d k) := by
  have hb := b.isLt; have hl := l.isLt; have hd := d.isLt; have hk := k.isLt
  funext a; apply Fin.ext
  match a with
  | ⟨0, _⟩ => show (((b.val * 2048 + l.val) * 1024 + d.val) * 16 + k.val) / 33554432 = b.val; omega
  | ⟨1, _⟩ => show (((b.val * 2048 + l.val) * 1024 + d.val) * 16 + k.val) / 16384 % 2048 = l.val; omega
  | ⟨2, _⟩ => show (((b.val * 2048 + l.val) * 1024 + d.val) * 16 + k.val) % 16384 = d.val * 16 + k.val; omega

/-- The biased product at (b, l, f): the three segment products of row f and its bias. -/
theorem row_eq (b : Fin 4) (l : Fin 2048) (f : Fin 16384) :
    val_main_v4 (F := Ideal) x0 x1 x2 x3 x4 (ix3 b l f) = rowTerm x0 x1 x2 x3 x4 b l f := by
  rw [val_main_v4_apply, val_main_v1_apply, val_main_v3_apply, val_main_v2_apply]
  show (∑ c : Fin 3072, val_main_v0 (F := Ideal) x0 x1 x2 (lidx_main_v1 (ix3 b l f) c) * x3 (ridx_main_v1 (ix3 b l f) c))
      + x4 (idx_main_v2 (idx_main_v3 (ix3 b l f))) = _
  rw [sum_three_segments]
  unfold rowTerm
  have hl : ∀ c : Fin 3072, lidx_main_v1 (ix3 b l f) c = ix3 b l c := fun c => funext fun a => Fin.ext (by
    match a with
    | ⟨0, _⟩ => rfl
    | ⟨1, _⟩ => rfl
    | ⟨2, _⟩ => rfl)
  have hr : ∀ c : Fin 3072, ridx_main_v1 (ix3 b l f) c = ix2 f c := fun c => funext fun a => Fin.ext (by
    match a with
    | ⟨0, _⟩ => rfl
    | ⟨1, _⟩ => rfl)
  have hb : idx_main_v2 (idx_main_v3 (ix3 b l f)) = ix1 f := funext fun a => Fin.ext (by
    match a with
    | ⟨0, _⟩ => rfl)
  simp only [hl, hr, hb, val_main_v0, joined_seg0, joined_seg1, joined_seg2]

/-- THE REFERENCE'S RESULT is the layer. -/
theorem ref_eq : val_main_v8 (F := Ideal) x0 x1 x2 x3 x4 = hyper x0 x1 x2 x3 x4 := by
  funext i
  obtain ⟨b, l, d, rfl⟩ : ∃ (b : Fin 4) (l : Fin 2048) (d : Fin 1024), i = ix3 b l d := ⟨i 0, i 1, i 2, eq_ix3 i⟩
  rw [val_main_v8_apply, val_main_v6_apply, val_main_v7_apply, hyper_apply]
  unfold hyperAt
  show (val_main_cst (F := Ideal) (Shape.Idx.first h_S_)
      + ∑ k : Fin 16, val_main_v5 (F := Ideal) x0 x1 x2 x3 x4 (idx_main_v6 (ix3 b l d) k)) * (x0 (ix3 b l d) * x1 (ix3 b l d)) = _
  refine congrArg₂ (· * ·) (congrArg₂ (· + ·) Ideal.ofBits_zero_f32 (Finset.sum_congr rfl fun k _ => ?_)) rfl
  rw [val_main_v5_apply, flat_idx, row_eq]

end Cert.Hyper.Ref

end
-- ==== Proof.LibRowsTimesRows.lean ====
/-
  The affine layer `x · Wᵀ + b` over the extended reals, for arrays of any sizes.

  `h` is an `[a, K]` array (one row per sample), `W` a `[b, K]` array (one row of weights per output feature) and
  `β` gives one bias per output feature. `linear h W β` is the `[a, b]` array whose entry `(r, q)` is
  `(∑ k, h[r, k] · W[q, k]) + β q`: row `r` of `h` against row `q` of `W`. Both operands are contracted along
  their SECOND axis, so no transpose is ever formed.

  Two spellings of this array are read here, entry by entry, as `linear`:
  * the device's — both operands narrowed to a smaller float format (the identity on an extended real), multiplied
    into an all-zero accumulator, plus a `[1, b]` bias row broadcast down the `a` rows (`device_apply`);
  * the host's — a `dot_general` of the two operands, plus a `[b]` bias vector first given a unit leading axis and
    then broadcast down the `a` rows (`host_apply`).
  What the dimension numbers of the product have to say is collected in `ContractsRows`: one contracted axis, of
  extent `K`; the left operand read at (row of the result, `k`) and the right operand at (column of the result, `k`).
  No entry has to be finite: only the definitions of the operations on the extended reals are used, and a finite sum
  re-indexed along a bijection.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowsTimesRows

open Idealize.ShloMosaic Idealize.ShloMosaic.ValueIdx
open scoped BigOperators

variable {a K b : ℕ}

/-! ## The layer as one function -/

/-- Entry `(p, q)` of the layer: row `p` of `h` against row `q` of `W`, plus the bias of output feature `q`. -/
def linearAt (h : (⟨2, ![a, K]⟩ : Shape).Idx → EReal) (W : (⟨2, ![b, K]⟩ : Shape).Idx → EReal) (β : Fin b → EReal)
    (p : Fin a) (q : Fin b) : EReal :=
  (∑ k : Fin K, h (ix2 p k) * W (ix2 q k)) + β q

/-- The whole `[a, b]` array `h · Wᵀ + β`. -/
def linear (h : (⟨2, ![a, K]⟩ : Shape).Idx → EReal) (W : (⟨2, ![b, K]⟩ : Shape).Idx → EReal) (β : Fin b → EReal) :
    (⟨2, ![a, b]⟩ : Shape).Idx → EReal :=
  fun i => linearAt h W β (i 0) (i 1)

theorem linear_apply (h : (⟨2, ![a, K]⟩ : Shape).Idx → EReal) (W : (⟨2, ![b, K]⟩ : Shape).Idx → EReal) (β : Fin b → EReal)
    (p : Fin a) (q : Fin b) : linear h W β (ix2 p q) = linearAt h W β p q := rfl

/-! ## The product's dimension numbers -/

/-- The dimension numbers of an `[a, K] × [b, K] → [a, b]` product that contracts the second axis of both operands:
    the contraction ranges over ONE axis, of extent `K`; at entry `j` of the result and contraction index `k` the left
    operand is read at `(j 0, k)` and the right operand at `(j 1, k)`. -/
structure ContractsRows (d : DotDims ⟨2, ![a, K]⟩ ⟨2, ![b, K]⟩ ⟨2, ![a, b]⟩) : Prop where
  rank : d.contr.rank = 1
  size : d.contr.size ⟨0, by omega⟩ = K
  lhs_row : ∀ (j : (⟨2, ![a, b]⟩ : Shape).Idx) (k : d.contr.Idx), (d.lhsIdx j k 0).val = (j 0).val
  lhs_col : ∀ (j : (⟨2, ![a, b]⟩ : Shape).Idx) (k : d.contr.Idx), (d.lhsIdx j k 1).val = (k ⟨0, by omega⟩).val
  rhs_row : ∀ (j : (⟨2, ![a, b]⟩ : Shape).Idx) (k : d.contr.Idx), (d.rhsIdx j k 0).val = (j 1).val
  rhs_col : ∀ (j : (⟨2, ![a, b]⟩ : Shape).Idx) (k : d.contr.Idx), (d.rhsIdx j k 1).val = (k ⟨0, by omega⟩).val

variable {d : DotDims ⟨2, ![a, K]⟩ ⟨2, ![b, K]⟩ ⟨2, ![a, b]⟩}

/-- The sum over the contraction's index set, re-indexed by the contracted position `k < K`: at entry `(p, q)` the
    products are `lhs[p, k] · rhs[q, k]`. -/
theorem ContractsRows.sum_eq (H : ContractsRows d) (lhs : (⟨2, ![a, K]⟩ : Shape).Idx → EReal)
    (rhs : (⟨2, ![b, K]⟩ : Shape).Idx → EReal) (p : Fin a) (q : Fin b) :
    ∑ k : d.contr.Idx, lhs (d.lhsIdx (ix2 p q) k) * rhs (d.rhsIdx (ix2 p q) k)
      = ∑ k : Fin K, lhs (ix2 p k) * rhs (ix2 q k) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun x => Fin.ext (by
    match x with
    | ⟨0, _⟩ => exact H.lhs_row _ _
    | ⟨1, _⟩ => exact (H.lhs_col _ _).trans hk)
  have er : d.rhsIdx (ix2 p q) ((contrEquiv1 d K H.rank H.size).symm k) = ix2 q k := funext fun x => Fin.ext (by
    match x with
    | ⟨0, _⟩ => exact H.rhs_row _ _
    | ⟨1, _⟩ => exact (H.rhs_col _ _).trans hk)
  rw [el, er]

/-! ## The device's spelling -/

/-- Both operands narrowed, multiplied into a zero accumulator, plus a `[1, b]` bias row broadcast down the rows:
    entry `(p, q)` is the layer's, the bias of feature `q` being the row's entry `(0, q)`. Narrowing a float format
    does nothing to an extended real, and the zero accumulator adds nothing. -/
theorem device_apply {φx φw ψx ψw : FTy} (H : ContractsRows d) (prec : Option ContractPrecision)
    (x : FVec Ideal ⟨2, ![a, K]⟩ φx) (w : FVec Ideal ⟨2, ![b, K]⟩ φw) (row : FVec Ideal ⟨2, ![1, b]⟩ .f32)
    (hx : ψx.bits < φx.bits) (hw : ψw.bits < φw.bits)
    (hb : (⟨2, ![1, b]⟩ : Shape).Broadcasts ⟨2, ![a, b]⟩) (p : Fin a) (q : Fin b) :
    addf (matmul d prec (truncf ψx x hx) (truncf ψw w hw) (constant (F := Ideal) ⟨2, ![a, b]⟩ .f32 0x00000000#32))
        (broadcastTo ⟨2, ![a, b]⟩ row hb) (ix2 p q)
      = linearAt x w (fun c => row (ix2 (0 : Fin 1) c)) p q := by
  rw [addf_apply, broadcastTo_1b_ab_apply]
  show FloatOps.matmul d prec (truncf ψx x hx) (truncf ψw w hw) (constant (F := Ideal) ⟨2, ![a, b]⟩ .f32 0x00000000#32) (ix2 p q) + _ = _
  rw [Ideal.matmul_constant_zero_apply, H.sum_eq]
  rfl

/-! ## The host's spelling -/

/-- A `[b]` vector given a unit leading axis and then broadcast down `a` rows reads, at `(p, q)`, the vector at `q`. -/
theorem biasRows_apply {α : Type} (vec : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 vec) (ix2 p q) = vec (ix1 q) := by
  rw [broadcastInDim_apply ![0, 1] h2 _ (ix2 p q) (ix2 (0 : Fin 1) q) (fun x => by
    match x with
    | ⟨0, _⟩ => rfl
    | ⟨1, _⟩ =>
      show q.val = if b = 1 then 0 else q.val
      split
      · have := q.isLt; omega
      · rfl)]
  exact broadcastInDim_apply ![1] h1 vec (ix2 (0 : Fin 1) q) (ix1 q) (fun x => by
    match x with
    | ⟨0, _⟩ =>
      show q.val = if b = 1 then 0 else q.val
      split
      · have := q.isLt; omega
      · rfl)

/-- The host's product plus the bias vector broadcast down the rows: entry `(p, q)` is the layer's, the bias of
    feature `q` being the vector's entry `q`. -/
theorem host_apply {φx φw : FTy} (H : ContractsRows d) (prec : Option ContractPrecision)
    (x : FVec Ideal ⟨2, ![a, K]⟩ φx) (w : FVec Ideal ⟨2, ![b, K]⟩ φw) (vec : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    addf (Host.dotGeneral d prec x w) (broadcastInDim ⟨2, ![a, b]⟩ ![0, 1] h2 (broadcastInDim ⟨2, ![1, b]⟩ ![1] h1 vec)) (ix2 p q)
      = linearAt x w (fun c => vec (ix1 c)) p q := by
  rw [addf_apply, biasRows_apply]
  show FloatOps.dotGeneral d prec .single x w (ix2 p q) + _ = _
  rw [Ideal.dotGeneral_apply, H.sum_eq]
  rfl

end Cert.RowsTimesRows

end
-- ==== Proof.KernelBody.lean ====
/-
  One tile of the device's computation, entry by entry.

  A tile holds 512 flat rows of x, y, z, the three [1024, 1024] blocks of summed weights (row q of each block belongs
  to output feature q) and the row of summed biases. Entry (p, q) of what it stores is

      ( ⟨x_p, Wx_q⟩ + ⟨y_p, Wy_q⟩ + ⟨z_p, Wz_q⟩ + bias_q ) · ( x[p,q] · y[p,q] ),

  each product contracting the second axis of both operands into an all-zero accumulator (`tile_apply`).
  When the tile's rows are a sample's rows and the weight blocks and bias row are the 16-row sums, that entry is the
  layer's (`tile_is_layer`): this is where the rows of W are summed before the products instead of after, so every
  entry of the five argument arrays has to be a real number.
-/
import proofs.«177009_j69303592288826_2_alg».proof.Proof.Gen.KernelIdeal.Skeleton
import proofs.«177009_j69303592288826_2_alg».proof.Proof.LibRowsTimesRows
import proofs.«177009_j69303592288826_2_alg».proof.Proof.Hyper
import Idealize.ShloMosaic.Lib.ValueLayout
import Idealize.ShloMosaic.Lib.Pipeline.Value

noncomputable section

namespace Cert.Hyper.Kern

open Cert.KernelIdeal Cert.KernelIdeal.Gen Cert.Hyper Cert.DenseEdges Cert.SumRowsFirst
open Idealize.ShloMosaic Idealize.ShloMosaic.ValueIdx
open scoped BigOperators

/-- The tile's products contract the second axis of both operands: [512, 1024] × [1024, 1024] → [512, 1024], the
    left operand read at (row, k) and the right one at (column, k). -/
theorem contractsRows : Cert.RowsTimesRows.ContractsRows (a := 512) (K := 1024) (b := 1024)
    dot_S512x1024_S1024x1024_S512x1024_1_1_0_0_n_n where
  rank := rfl
  size := rfl
  lhs_row := fun j k => by
    unfold DotDims.lhsIdx
    rw [dif_neg (show ¬(0 : Fin S512x1024.rank) ∈ dot_S512x1024_S1024x1024_S512x1024_1_1_0_0_n_n.lhsBatch by decide),
      dif_pos (show (0 : Fin S512x1024.rank) ∈ dot_S512x1024_S1024x1024_S512x1024_1_1_0_0_n_n.lhsNonContracting by decide)]
    rfl
  lhs_col := fun j k => dot_S512x1024_S1024x1024_S512x1024_1_1_0_0_n_n.lhsIdx_val_of_single rfl j k
  rhs_row := fun j k => by
    unfold DotDims.rhsIdx
    rw [dif_neg (show ¬(0 : Fin S1024x1024.rank) ∈ dot_S512x1024_S1024x1024_S512x1024_1_1_0_0_n_n.rhsBatch by decide),
      dif_pos (show (0 : Fin S1024x1024.rank) ∈ dot_S512x1024_S1024x1024_S512x1024_1_1_0_0_n_n.rhsNonContracting by decide)]
    rfl
  rhs_col := fun j k => dot_S512x1024_S1024x1024_S512x1024_1_1_0_0_n_n.rhsIdx_val_of_single rfl j k

/-- The stored tile at (p, q). -/
theorem tile_apply (x0 x1 x2 : Vec Ideal S512x1024 .f32) (x3 x4 x5 : Vec Ideal S1024x1024 .f32) (x6 : Vec Ideal S1x1024 .f32)
    (p : Fin 512) (q : Fin 1024) :
    k0_pay1 (F := Ideal) x0 x1 x2 x3 x4 x5 x6 (ix2 p q)
      = ((((∑ c : Fin 1024, x0 (ix2 p c) * x3 (ix2 q c)) + (∑ c : Fin 1024, x1 (ix2 p c) * x4 (ix2 q c)))
          + (∑ c : Fin 1024, x2 (ix2 p c) * x5 (ix2 q c))) + x6 (ix2 (0 : Fin 1) q)) * (x0 (ix2 p q) * x1 (ix2 p q)) := by
  unfold k0_pay1
  simp only [shapeCast_self]
  show (((FloatOps.matmul dot_S512x1024_S1024x1024_S512x1024_1_1_0_0_n_n (some .fp32) x0 x3 (constant (F := Ideal) S512x1024 .f32 0x00000000#32) (ix2 p q)
        + FloatOps.matmul dot_S512x1024_S1024x1024_S512x1024_1_1_0_0_n_n (some .fp32) x1 x4 (constant (F := Ideal) S512x1024 .f32 0x00000000#32) (ix2 p q))
        + FloatOps.matmul dot_S512x1024_S1024x1024_S512x1024_1_1_0_0_n_n (some .fp32) x2 x5 (constant (F := Ideal) S512x1024 .f32 0x00000000#32) (ix2 p q))
        + broadcastTo S512x1024 x6 broadcasts_S1x1024_S512x1024 (ix2 p q)) * (x0 (ix2 p q) * x1 (ix2 p q)) = _
  rw [Ideal.matmul_constant_zero_apply, Ideal.matmul_constant_zero_apply, Ideal.matmul_constant_zero_apply,
    contractsRows.sum_eq, contractsRows.sum_eq, contractsRows.sum_eq, broadcastTo_1b_ab_apply]

/-- A tile over a sample's rows, with the 16-row sums of W and β, stores the layer's entries. -/
theorem tile_is_layer (X Y Z : (⟨3, ![4, 2048, 1024]⟩ : Shape).Idx → EReal) (W : (⟨2, ![16384, 3072]⟩ : Shape).Idx → EReal)
    (β : (⟨1, ![16384]⟩ : Shape).Idx → EReal)
    (hX : ∀ i, IsReal (X i)) (hY : ∀ i, IsReal (Y i)) (hZ : ∀ i, IsReal (Z i)) (hW : ∀ i, IsReal (W i)) (hβ : ∀ i, IsReal (β i))
    (x0 x1 x2 : Vec Ideal S512x1024 .f32) (x3 x4 x5 : Vec Ideal S1024x1024 .f32) (x6 : Vec Ideal S1x1024 .f32)
    (b : Fin 4) (l : Fin 2048) (p : Fin 512) (q : Fin 1024)
    (h0 : ∀ c : Fin 1024, x0 (ix2 p c) = X (ix3 b l c)) (h1 : ∀ c : Fin 1024, x1 (ix2 p c) = Y (ix3 b l c))
    (h2 : ∀ c : Fin 1024, x2 (ix2 p c) = Z (ix3 b l c))
    (h3 : ∀ c : Fin 1024, x3 (ix2 q c) = 0 + ∑ k : Fin 16, W (ix2 (feat q k) (seg0 c)))
    (h4 : ∀ c : Fin 1024, x4 (ix2 q c) = 0 + ∑ k : Fin 16, W (ix2 (feat q k) (seg1 c)))
    (h5 : ∀ c : Fin 1024, x5 (ix2 q c) = 0 + ∑ k : Fin 16, W (ix2 (feat q k) (seg2 c)))
    (h6 : x6 (ix2 (0 : Fin 1) q) = 0 + ∑ k : Fin 16, β (ix1 (feat q k))) :
    k0_pay1 (F := Ideal) x0 x1 x2 x3 x4 x5 x6 (ix2 p q) = hyperAt X Y Z W β b l q := by
  rw [tile_apply]
  simp only [h0, h1, h2, h3, h4, h5, h6]
  unfold hyperAt rowTerm
  rw [reduce_first (fun c => X (ix3 b l c)) (fun c => Y (ix3 b l c)) (fun c => Z (ix3 b l c))
    (fun k c => W (ix2 (feat q k) (seg0 c))) (fun k c => W (ix2 (feat q k) (seg1 c))) (fun k c => W (ix2 (feat q k) (seg2 c)))
    (fun k => β (ix1 (feat q k))) (fun _ => hX _) (fun _ => hY _) (fun _ => hZ _) (fun _ _ => hW _) (fun _ _ => hW _)
    (fun _ _ => hW _) (fun _ => hβ _)]

end Cert.Hyper.Kern

end
-- ==== Proof.LibRelayout.lean ====
/-
  Re-layouts of an array read at an index given by its coordinates.

  A row-major reshape keeps the position of every entry in the flat order. So a reshape that MERGES leading axes
  ([a, b, c] to [a·b, c]) reads, at row `p·b + q`, the entry `(p, q, ·)`; one that SPLITS them back reads the same the other
  way; one that INSERTS a unit axis forgets the unit coordinate. A broadcast along an axis of extent one reads the one
  entry there is on that axis. Each statement below names both indices by coordinates, for any extents, so that a chain of
  such operations is walked by `rw`, outermost operation first.
-/
import Idealize.ShloMosaic.Lib.ValueIdx
import Idealize.ShloMosaic.Lib.ValueLayout
import Idealize.ShloMosaic.Lib.Pipeline.Value

namespace Cert.Relayout

open Idealize.ShloMosaic Idealize.ShloMosaic.ValueIdx

variable {α : Type}

/-! ## Merging and splitting leading axes -/

/-- `[a, b, c]` merged to `[M, c]`: row `p·b + q` is `(p, q, ·)`. -/
theorem merge_ab_apply {a b c M : ℕ} (x : (⟨3, ![a, b, c]⟩ : Shape).Idx → α) (h : (⟨3, ![a, b, c]⟩ : Shape).ShapeCasts ⟨2, ![M, c]⟩)
    (p : Fin a) (q : Fin b) (k : Fin c) (r : Fin M) (hr : r.val = p.val * b + q.val) :
    shapeCast ⟨2, ![M, c]⟩ x h (ix2 r k) = x (ix3 p q k) :=
  shapeCast_apply x h _ _ (by
    rw [Shape.rowMajor_val_three, Shape.rowMajor_val_two]
    show (p.val * b + q.val) * c + k.val = r.val * c + k.val
    rw [hr])

/-- `[M, c]` split to `[a, b, c]`: `(p, q, ·)` is row `p·b + q`. -/
theorem split_ab_apply {a b c M : ℕ} (x : (⟨2, ![M, c]⟩ : Shape).Idx → α) (h : (⟨2, ![M, c]⟩ : Shape).ShapeCasts ⟨3, ![a, b, c]⟩)
    (p : Fin a) (q : Fin b) (k : Fin c) (r : Fin M) (hr : r.val = p.val * b + q.val) :
    shapeCast ⟨3, ![a, b, c]⟩ x h (ix3 p q k) = x (ix2 r k) :=
  shapeCast_apply x h _ _ (by
    rw [Shape.rowMajor_val_three, Shape.rowMajor_val_two]
    show r.val * c + k.val = (p.val * b + q.val) * c + k.val
    rw [hr])

/-- `[a, b, c, d]` merged to `[M, d]`: row `(p·b + q)·c + s` is `(p, q, s, ·)`. -/
theorem merge_abc_apply {a b c d M : ℕ} (x : (⟨4, ![a, b, c, d]⟩ : Shape).Idx → α) (h : (⟨4, ![a, b, c, d]⟩ : Shape).ShapeCasts ⟨2, ![M, d]⟩)
    (p : Fin a) (q : Fin b) (s : Fin c) (k : Fin d) (r : Fin M) (hr : r.val = (p.val * b + q.val) * c + s.val) :
    shapeCast ⟨2, ![M, d]⟩ x h (ix2 r k) = x (ix4 p q s k) :=
  shapeCast_apply x h _ _ (by
    rw [Shape.rowMajor_val_four, Shape.rowMajor_val_two]
    show ((p.val * b + q.val) * c + s.val) * d + k.val = r.val * d + k.val
    rw [hr])

/-- `[M, d]` split to `[a, b, c, d]`: `(p, q, s, ·)` is row `(p·b + q)·c + s`. -/
theorem split_abc_apply {a b c d M : ℕ} (x : (⟨2, ![M, d]⟩ : Shape).Idx → α) (h : (⟨2, ![M, d]⟩ : Shape).ShapeCasts ⟨4, ![a, b, c, d]⟩)
    (p : Fin a) (q : Fin b) (s : Fin c) (k : Fin d) (r : Fin M) (hr : r.val = (p.val * b + q.val) * c + s.val) :
    shapeCast ⟨4, ![a, b, c, d]⟩ x h (ix4 p q s k) = x (ix2 r k) :=
  shapeCast_apply x h _ _ (by
    rw [Shape.rowMajor_val_four, Shape.rowMajor_val_two]
    show r.val * d + k.val = ((p.val * b + q.val) * c + s.val) * d + k.val
    rw [hr])

/-- `[a, b, c, d]` with its two leading axes merged, `[N, c, d]`: leading coordinate `p·b + q` is `(p, q, ·, ·)`. -/
theorem mergeLead_apply {a b c d N : ℕ} (x : (⟨4, ![a, b, c, d]⟩ : Shape).Idx → α) (h : (⟨4, ![a, b, c, d]⟩ : Shape).ShapeCasts ⟨3, ![N, c, d]⟩)
    (p : Fin a) (q : Fin b) (s : Fin c) (k : Fin d) (n : Fin N) (hn : n.val = p.val * b + q.val) :
    shapeCast ⟨3, ![N, c, d]⟩ x h (ix3 n s k) = x (ix4 p q s k) :=
  shapeCast_apply x h _ _ (by
    rw [Shape.rowMajor_val_four, Shape.rowMajor_val_three]
    show ((p.val * b + q.val) * c + s.val) * d + k.val = (n.val * c + s.val) * d + k.val
    rw [hn])

/-! ## A unit axis inserted in the middle -/

/-- `[a, b, c]` viewed `[a, 1, b, c]`. -/
theorem unitSecond_apply {a b c : ℕ} (x : (⟨3, ![a, b, c]⟩ : Shape).Idx → α) (h : (⟨3, ![a, b, c]⟩ : Shape).ShapeCasts ⟨4, ![a, 1, b, c]⟩)
    (p : Fin a) (u : Fin 1) (q : Fin b) (k : Fin c) :
    shapeCast ⟨4, ![a, 1, b, c]⟩ x h (ix4 p u q k) = x (ix3 p q k) :=
  shapeCast_apply x h _ _ (by
    have hu : u.val = 0 := by omega
    rw [Shape.rowMajor_val_four, Shape.rowMajor_val_three]
    show (p.val * b + q.val) * c + k.val = ((p.val * 1 + u.val) * b + q.val) * c + k.val
    rw [hu, Nat.mul_one, Nat.add_zero])

/-- `[a, b, c]` viewed `[a, b, 1, c]`. -/
theorem unitThird_apply {a b c : ℕ} (x : (⟨3, ![a, b, c]⟩ : Shape).Idx → α) (h : (⟨3, ![a, b, c]⟩ : Shape).ShapeCasts ⟨4, ![a, b, 1, c]⟩)
    (p : Fin a) (q : Fin b) (u : Fin 1) (k : Fin c) :
    shapeCast ⟨4, ![a, b, 1, c]⟩ x h (ix4 p q u k) = x (ix3 p q k) :=
  shapeCast_apply x h _ _ (by
    have hu : u.val = 0 := by omega
    rw [Shape.rowMajor_val_four, Shape.rowMajor_val_three]
    show (p.val * b + q.val) * c + k.val = ((p.val * b + q.val) * 1 + u.val) * c + k.val
    rw [hu, Nat.mul_one, Nat.add_zero])

/-- A row `[1, c]` viewed `[1, 1, 1, c]`. -/
theorem rowToUnits_apply {c : ℕ} (x : (⟨2, ![1, c]⟩ : Shape).Idx → α) (h : (⟨2, ![1, c]⟩ : Shape).ShapeCasts ⟨4, ![1, 1, 1, c]⟩)
    (u1 u2 u3 : Fin 1) (k : Fin c) :
    shapeCast ⟨4, ![1, 1, 1, c]⟩ x h (ix4 u1 u2 u3 k) = x (ix2 (0 : Fin 1) k) :=
  shapeCast_apply x h _ _ (by
    have h1 : u1.val = 0 := by omega
    have h2 : u2.val = 0 := by omega
    have h3 : u3.val = 0 := by omega
    rw [Shape.rowMajor_val_four, Shape.rowMajor_val_two]
    show 0 * c + k.val = ((u1.val * 1 + u2.val) * 1 + u3.val) * c + k.val
    rw [h1, h2, h3])

/-! ## Broadcasts along one axis of a rank-4 array -/

/-- `[a, 1, c, d]` broadcast to `[a, b, c, d]`. -/
theorem bcastSecond_apply {a b c d : ℕ} (x : (⟨4, ![a, 1, c, d]⟩ : Shape).Idx → α) (h : (⟨4, ![a, 1, c, d]⟩ : Shape).Broadcasts ⟨4, ![a, b, c, d]⟩)
    (p : Fin a) (q : Fin b) (s : Fin c) (k : Fin d) :
    broadcastTo ⟨4, ![a, b, c, d]⟩ x h (ix4 p q s k) = x (ix4 p (0 : Fin 1) s k) :=
  broadcastTo_apply x h _ _ fun ax => by
    match ax with
    | ⟨0, _⟩ => show p.val = if a = 1 then 0 else p.val; split <;> [(have := p.isLt; omega); rfl]
    | ⟨1, _⟩ => show (0 : ℕ) = if (1 : ℕ) = 1 then 0 else q.val; rw [if_pos rfl]
    | ⟨2, _⟩ => show s.val = if c = 1 then 0 else s.val; split <;> [(have := s.isLt; omega); rfl]
    | ⟨3, _⟩ => show k.val = if d = 1 then 0 else k.val; split <;> [(have := k.isLt; omega); rfl]

/-- `[a, b, 1, d]` broadcast to `[a, b, c, d]`. -/
theorem bcastThird_apply {a b c d : ℕ} (x : (⟨4, ![a, b, 1, d]⟩ : Shape).Idx → α) (h : (⟨4, ![a, b, 1, d]⟩ : Shape).Broadcasts ⟨4, ![a, b, c, d]⟩)
    (p : Fin a) (q : Fin b) (s : Fin c) (k : Fin d) :
    broadcastTo ⟨4, ![a, b, c, d]⟩ x h (ix4 p q s k) = x (ix4 p q (0 : Fin 1) k) :=
  broadcastTo_apply x h _ _ fun ax => by
    match ax with
    | ⟨0, _⟩ => show p.val = if a = 1 then 0 else p.val; split <;> [(have := p.isLt; omega); rfl]
    | ⟨1, _⟩ => show q.val = if b = 1 then 0 else q.val; split <;> [(have := q.isLt; omega); rfl]
    | ⟨2, _⟩ => show (0 : ℕ) = if (1 : ℕ) = 1 then 0 else s.val; rw [if_pos rfl]
    | ⟨3, _⟩ => show k.val = if d = 1 then 0 else k.val; split <;> [(have := k.isLt; omega); rfl]

/-- `[1, 1, 1, d]` broadcast to `[a, b, c, d]`: one row for every `(p, q, s)`. -/
theorem bcastRow_apply {a b c d : ℕ} (x : (⟨4, ![1, 1, 1, d]⟩ : Shape).Idx → α) (h : (⟨4, ![1, 1, 1, d]⟩ : Shape).Broadcasts ⟨4, ![a, b, c, d]⟩)
    (p : Fin a) (q : Fin b) (s : Fin c) (k : Fin d) :
    broadcastTo ⟨4, ![a, b, c, d]⟩ x h (ix4 p q s k) = x (ix4 (0 : Fin 1) (0 : Fin 1) (0 : Fin 1) k) :=
  broadcastTo_apply x h _ _ fun ax => by
    match ax with
    | ⟨0, _⟩ => show (0 : ℕ) = if (1 : ℕ) = 1 then 0 else p.val; rw [if_pos rfl]
    | ⟨1, _⟩ => show (0 : ℕ) = if (1 : ℕ) = 1 then 0 else q.val; rw [if_pos rfl]
    | ⟨2, _⟩ => show (0 : ℕ) = if (1 : ℕ) = 1 then 0 else s.val; rw [if_pos rfl]
    | ⟨3, _⟩ => show k.val = if d = 1 then 0 else k.val; split <;> [(have := k.isLt; omega); rfl]

end Cert.Relayout
-- ==== Proof.Flat.lean ====
/-
  The layer with its two sample axes merged: a [8192, 1024] array whose row r = 2048·b + l is sample (b, l).

  The device works on this flat form (rows are tiled 512 at a time) and the result is viewed [4, 2048, 1024] at the
  end; a row-major view keeps every entry's position, so the view of the flat form is the layer itself.
-/
import proofs.«177009_j69303592288826_2_alg».proof.Proof.Hyper
import proofs.«177009_j69303592288826_2_alg».proof.Proof.LibRelayout

noncomputable section

namespace Cert.Hyper

open Idealize.ShloMosaic Idealize.ShloMosaic.ValueIdx

/-- The batch index of flat row r. -/
def rowB (r : Fin 8192) : Fin 4 := ⟨r.val / 2048, by have := r.isLt; omega⟩
/-- The position of flat row r within its batch. -/
def rowL (r : Fin 8192) : Fin 2048 := ⟨r.val % 2048, by omega⟩

/-- The layer on flat rows. -/
def hyperFlat (x y z : (⟨3, ![4, 2048, 1024]⟩ : Shape).Idx → EReal) (W : (⟨2, ![16384, 3072]⟩ : Shape).Idx → EReal)
    (β : (⟨1, ![16384]⟩ : Shape).Idx → EReal) : (⟨2, ![8192, 1024]⟩ : Shape).Idx → EReal :=
  fun i => hyperAt x y z W β (rowB (i 0)) (rowL (i 0)) (i 1)

/-- The flat form viewed [4, 2048, 1024] is the layer. -/
theorem unflatten (x y z : (⟨3, ![4, 2048, 1024]⟩ : Shape).Idx → EReal) (W : (⟨2, ![16384, 3072]⟩ : Shape).Idx → EReal)
    (β : (⟨1, ![16384]⟩ : Shape).Idx → EReal) (h : (⟨2, ![8192, 1024]⟩ : Shape).ShapeCasts ⟨3, ![4, 2048, 1024]⟩) :
    shapeCast ⟨3, ![4, 2048, 1024]⟩ (hyperFlat x y z W β) h = hyper x y z W β := by
  funext i
  obtain ⟨b, l, d, rfl⟩ : ∃ (b : Fin 4) (l : Fin 2048) (d : Fin 1024), i = ix3 b l d := ⟨i 0, i 1, i 2, eq_ix3 i⟩
  have hb := b.isLt; have hl := l.isLt
  rw [Cert.Relayout.split_ab_apply (hyperFlat x y z W β) h b l d ⟨b.val * 2048 + l.val, by omega⟩ rfl, hyper_apply]
  show hyperAt x y z W β (rowB ⟨b.val * 2048 + l.val, _⟩) (rowL ⟨b.val * 2048 + l.val, _⟩) d = _
  have e1 : rowB ⟨b.val * 2048 + l.val, by omega⟩ = b := Fin.ext (by show (b.val * 2048 + l.val) / 2048 = b.val; omega)
  have e2 : rowL ⟨b.val * 2048 + l.val, by omega⟩ = l := Fin.ext (by show (b.val * 2048 + l.val) % 2048 = l.val; omega)
  rw [e1, e2]

end Cert.Hyper

end
-- ==== Proof.KernelValue.lean ====
/-
  What the device program leaves in its result.

  Before the region the host lines build the flat [8192, 1024] views of x, y, z, the three [1024, 1024] blocks of
  16-row sums of W and the [1, 1024] row of 16-entry sums of β. Grid point t (of 16) works on flat rows
  512·t … 512·t + 511: it fetches those rows of x, y, z, the whole weight blocks and bias row, and writes back the
  same rows of the output. Entry (p, q) of what it writes is the layer at flat row 512·t + p, feature q
  (`flushed_eq`, by `tile_is_layer`); the 16 row blocks tile the output, so the output array ends as the flat layer
  (`final`); the last host line views it [4, 2048, 1024], which is the layer (`result`).
  Every entry of the five argument arrays is assumed to be a real number: the rows of W are summed before the products.
-/
import proofs.«177009_j69303592288826_2_alg».proof.Proof.Gen.KernelIdeal.Frame
import proofs.«177009_j69303592288826_2_alg».proof.Proof.KernelBody
import proofs.«177009_j69303592288826_2_alg».proof.Proof.Layouts
import proofs.«177009_j69303592288826_2_alg».proof.Proof.Flat
import Idealize.ShloMosaic.Lib.Pipeline.Value
import Idealize.ShloMosaic.Lib.StableHlo.Run

set_option maxRecDepth 16384

noncomputable section

namespace Cert.Hyper.Kern

open Cert.KernelIdeal Cert.KernelIdeal.Gen Cert.Hyper Cert.DenseEdges
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-! ## The argument arrays on core c, as functions of an index -/

abbrev argX (c : Dev nD) : S4x2048x1024.Idx → EReal := m ((c : Thread nD τ).loc main_arg0)
abbrev argY (c : Dev nD) : S4x2048x1024.Idx → EReal := m ((c : Thread nD τ).loc main_arg1)
abbrev argZ (c : Dev nD) : S4x2048x1024.Idx → EReal := m ((c : Thread nD τ).loc main_arg2)
abbrev argW (c : Dev nD) : S16384x3072.Idx → EReal := m ((c : Thread nD τ).loc main_arg3)
abbrev argB (c : Dev nD) : S16384.Idx → EReal := m ((c : Thread nD τ).loc main_arg4)

/-! ## The arrays the region finds -/

theorem V_rows0 (c : Dev nD) : (V m c main_v8 : S8192x1024.Idx → EReal)
    = shapeCast S8192x1024 (m ((c : Thread nD τ).loc main_arg0)) shapeCasts_S4x2048x1024_S8192x1024 := by
  show StableHlo.after hostOps0 (fun b => m (c, b)) (Proc.devRef .tc main_v8) = _
  after_results; rfl

theorem V_rows1 (c : Dev nD) : (V m c main_v9 : S8192x1024.Idx → EReal)
    = shapeCast S8192x1024 (m ((c : Thread nD τ).loc main_arg1)) shapeCasts_S4x2048x1024_S8192x1024 := by
  show StableHlo.after hostOps0 (fun b => m (c, b)) (Proc.devRef .tc main_v9) = _
  after_results; rfl

theorem V_rows2 (c : Dev nD) : (V m c main_v10 : S8192x1024.Idx → EReal)
    = shapeCast S8192x1024 (m ((c : Thread nD τ).loc main_arg2)) shapeCasts_S4x2048x1024_S8192x1024 := by
  show StableHlo.after hostOps0 (fun b => m (c, b)) (Proc.devRef .tc main_v10) = _
  after_results; rfl

/-- The 16-row sums of W, before the three column blocks are cut from them. -/
abbrev summedW (c : Dev nD) : S1024x3072.Idx → EReal :=
  Host.reduceAdd (shapeCast S1024x16x3072 (m ((c : Thread nD τ).loc main_arg3)) shapeCasts_S16384x3072_S1024x16x3072)
    (constant (F := Ideal) S_ .f32 0x00000000#32) reducesTo_S1024x16x3072_S1024x3072_d1 h_S_

theorem V_seg0 (c : Dev nD) : (V m c main_v5 : S1024x1024.Idx → EReal)
    = extractStridedSlice S1024x1024 ![0, 0] (summedW m c) slices_S1024x3072_S1024x1024_0_0 := by
  show StableHlo.after hostOps0 (fun b => m (c, b)) (Proc.devRef .tc main_v5) = _
  after_results; rfl

theorem V_seg1 (c : Dev nD) : (V m c main_v6 : S1024x1024.Idx → EReal)
    = extractStridedSlice S1024x1024 ![0, 1024] (summedW m c) slices_S1024x3072_S1024x1024_0_1024 := by
  show StableHlo.after hostOps0 (fun b => m (c, b)) (Proc.devRef .tc main_v6) = _
  after_results; rfl

theorem V_seg2 (c : Dev nD) : (V m c main_v7 : S1024x1024.Idx → EReal)
    = extractStridedSlice S1024x1024 ![0, 2048] (summedW m c) slices_S1024x3072_S1024x1024_0_2048 := by
  show StableHlo.after hostOps0 (fun b => m (c, b)) (Proc.devRef .tc main_v7) = _
  after_results; rfl

theorem V_bias (c : Dev nD) : (V m c main_v4 : S1x1024.Idx → EReal)
    = shapeCast S1x1024 (Host.reduceAdd (shapeCast S1024x16 (m ((c : Thread nD τ).loc main_arg4)) shapeCasts_S16384_S1024x16)
        (constant (F := Ideal) S_ .f32 0x00000000#32) reducesTo_S1024x16_S1024_d1 h_S_) shapeCasts_S1024_S1x1024 := by
  show StableHlo.after hostOps0 (fun b => m (c, b)) (Proc.devRef .tc main_v4) = _
  after_results; rfl

/-! ## Their entries -/

theorem rows0_apply (c : Dev nD) (r : Fin 8192) (k : Fin 1024) :
    V m c main_v8 (ix2 r k) = argX m c (ix3 (rowB r) (rowL r) k) := by
  rw [V_rows0]
  exact Cert.Relayout.merge_ab_apply _ shapeCasts_S4x2048x1024_S8192x1024 (rowB r) (rowL r) k r (by
    show r.val = r.val / 2048 * 2048 + r.val % 2048; omega)

theorem rows1_apply (c : Dev nD) (r : Fin 8192) (k : Fin 1024) :
    V m c main_v9 (ix2 r k) = argY m c (ix3 (rowB r) (rowL r) k) := by
  rw [V_rows1]
  exact Cert.Relayout.merge_ab_apply _ shapeCasts_S4x2048x1024_S8192x1024 (rowB r) (rowL r) k r (by
    show r.val = r.val / 2048 * 2048 + r.val % 2048; omega)

theorem rows2_apply (c : Dev nD) (r : Fin 8192) (k : Fin 1024) :
    V m c main_v10 (ix2 r k) = argZ m c (ix3 (rowB r) (rowL r) k) := by
  rw [V_rows2]
  exact Cert.Relayout.merge_ab_apply _ shapeCasts_S4x2048x1024_S8192x1024 (rowB r) (rowL r) k r (by
    show r.val = r.val / 2048 * 2048 + r.val % 2048; omega)

theorem seg0_apply (c : Dev nD) (q k : Fin 1024) :
    V m c main_v5 (ix2 q k) = 0 + ∑ j : Fin 16, argW m c (ix2 (feat q j) (seg0 k)) := by
  rw [V_seg0, segment_apply (summedW m c) 0 slices_S1024x3072_S1024x1024_0_0 q k (seg0 k) (by show k.val = 0 + k.val; omega)]
  exact rowsSummed_apply _ _ _ _ q (seg0 k)

theorem seg1_apply (c : Dev nD) (q k : Fin 1024) :
    V m c main_v6 (ix2 q k) = 0 + ∑ j : Fin 16, argW m c (ix2 (feat q j) (seg1 k)) := by
  rw [V_seg1, segment_apply (summedW m c) 1024 slices_S1024x3072_S1024x1024_0_1024 q k (seg1 k) rfl]
  exact rowsSummed_apply _ _ _ _ q (seg1 k)

theorem seg2_apply (c : Dev nD) (q k : Fin 1024) :
    V m c main_v7 (ix2 q k) = 0 + ∑ j : Fin 16, argW m c (ix2 (feat q j) (seg2 k)) := by
  rw [V_seg2, segment_apply (summedW m c) 2048 slices_S1024x3072_S1024x1024_0_2048 q k (seg2 k) rfl]
  exact rowsSummed_apply _ _ _ _ q (seg2 k)

theorem bias_apply (c : Dev nD) (q : Fin 1024) :
    V m c main_v4 (ix2 (0 : Fin 1) q) = 0 + ∑ j : Fin 16, argB m c (ix1 (feat q j)) := by
  rw [V_bias]
  exact biasSummed_apply _ _ _ _ _ 0 q

/-! ## What a grid point writes back -/

theorem hz : (![0, 0] : Fin 2 → Nat) = fun _ => 0 := funext fun a => by fin_cases a <;> rfl

/-- The printed index maps over the 16 grid points: the row windows (x, y, z and the output) sit at row block t, the
    weight blocks and the bias row at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Flat row 512·t + p: row p of grid point t's tile. -/
def tileRow (t : Fin cfg0.N) (p : Fin 512) : Fin 8192 :=
  ⟨t.val * 512 + p.val, by have := t.isLt; have := p.isLt; have : cfg0.N = 16 := N_0; omega⟩

variable (hX : ∀ (c : Dev nD) i, IsReal (argX m c i)) (hY : ∀ (c : Dev nD) i, IsReal (argY m c i))
  (hZ : ∀ (c : Dev nD) i, IsReal (argZ m c i)) (hW : ∀ (c : Dev nD) i, IsReal (argW m c i))
  (hβ : ∀ (c : Dev nD) i, IsReal (argB m c i))

/-- The flat layer of the argument arrays on core c. -/
abbrev flatLayer (c : Dev nD) : S8192x1024.Idx → EReal :=
  hyperFlat (argX m c) (argY m c) (argZ m c) (argW m c) (argB m c)

include hX hY hZ hW hβ in
/-- WHAT POINT t WRITES BACK is its row block of the flat layer. -/
theorem flushed_eq (c : Dev nD) (t : Fin cfg0.N) :
    (dats m 0 c).flushed 7 t = ((cfg0.win 7).blk t).view.read (Elt Ideal) (flatLayer m c) := by
  show (cfg0.win 7).cut (grid0.coords t) ((dats m 0 c).after 7 t) = _
  rw [after0_7]
  unfold out0_7
  rw [View.canon_unit_zero hz]
  simp only [View.ld_unit_zero (S := S512x1024) hz, View.ld_unit_zero (S := S1024x1024) hz, View.ld_unit_zero (S := S1x1024) hz]
  obtain ⟨e00, e01, e10, e11, e20, e21, e30, e31, e40, e41, e50, e51, e60, e61, e70, e71⟩ := idx_facts t
  funext j
  obtain ⟨p, q, rfl⟩ : ∃ (p : Fin 512) (q : Fin 1024), j = ix2 p q := ⟨j 0, j 1, eq_ix2 j⟩
  have hp := p.isLt; have hq := q.isLt
  show k0_pay1 (F := Ideal) (iblk m c 0 t) (iblk m c 1 t) (iblk m c 2 t) (iblk m c 3 t) (iblk m c 4 t) (iblk m c 5 t) (iblk m c 6 t) (ix2 p q)
    = flatLayer m c (((cfg0.win 7).blk t).view.emb (ix2 p q))
  have eo : ((cfg0.win 7).blk t).view.emb (ix2 p q) = ix2 (tileRow t p) q := by
    funext a; apply Fin.ext
    match a with
    | ⟨0, _⟩ => show win0_7.index t (0 : Fin 2) * 512 + 1 * p.val = t.val * 512 + p.val; omega
    | ⟨1, _⟩ => show win0_7.index t (1 : Fin 2) * 1024 + 1 * q.val = q.val; omega
  rw [eo]
  show _ = hyperAt _ _ _ _ _ (rowB (tileRow t p)) (rowL (tileRow t p)) q
  refine tile_is_layer _ _ _ _ _ (hX c) (hY c) (hZ c) (hW c) (hβ c)
    (iblk m c 0 t) (iblk m c 1 t) (iblk m c 2 t) (iblk m c 3 t) (iblk m c 4 t) (iblk m c 5 t) (iblk m c 6 t)
    (rowB (tileRow t p)) (rowL (tileRow t p)) p q ?_ ?_ ?_ ?_ ?_ ?_ ?_
  · intro k
    have hk := k.isLt
    show V m c main_v8 (((cfg0.win 0).blk t).view.emb (ix2 p k)) = _
    have e : ((cfg0.win 0).blk t).view.emb (ix2 p k) = ix2 (tileRow t p) k := by
      funext a; apply Fin.ext
      match a with
      | ⟨0, _⟩ => show win0_0.index t (0 : Fin 2) * 512 + 1 * p.val = t.val * 512 + p.val; omega
      | ⟨1, _⟩ => show win0_0.index t (1 : Fin 2) * 1024 + 1 * k.val = k.val; omega
    rw [e]; exact rows0_apply m c _ k
  · intro k
    have hk := k.isLt
    show V m c main_v9 (((cfg0.win 1).blk t).view.emb (ix2 p k)) = _
    have e : ((cfg0.win 1).blk t).view.emb (ix2 p k) = ix2 (tileRow t p) k := by
      funext a; apply Fin.ext
      match a with
      | ⟨0, _⟩ => show win0_1.index t (0 : Fin 2) * 512 + 1 * p.val = t.val * 512 + p.val; omega
      | ⟨1, _⟩ => show win0_1.index t (1 : Fin 2) * 1024 + 1 * k.val = k.val; omega
    rw [e]; exact rows1_apply m c _ k
  · intro k
    have hk := k.isLt
    show V m c main_v10 (((cfg0.win 2).blk t).view.emb (ix2 p k)) = _
    have e : ((cfg0.win 2).blk t).view.emb (ix2 p k) = ix2 (tileRow t p) k := by
      funext a; apply Fin.ext
      match a with
      | ⟨0, _⟩ => show win0_2.index t (0 : Fin 2) * 512 + 1 * p.val = t.val * 512 + p.val; omega
      | ⟨1, _⟩ => show win0_2.index t (1 : Fin 2) * 1024 + 1 * k.val = k.val; omega
    rw [e]; exact rows2_apply m c _ k
  · intro k
    have hk := k.isLt
    show V m c main_v5 (((cfg0.win 3).blk t).view.emb (ix2 q k)) = _
    have e : ((cfg0.win 3).blk t).view.emb (ix2 q k) = ix2 q k := by
      funext a; apply Fin.ext
      match a with
      | ⟨0, _⟩ => show win0_3.index t (0 : Fin 2) * 1024 + 1 * q.val = q.val; omega
      | ⟨1, _⟩ => show win0_3.index t (1 : Fin 2) * 1024 + 1 * k.val = k.val; omega
    rw [e]; exact seg0_apply m c q k
  · intro k
    have hk := k.isLt
    show V m c main_v6 (((cfg0.win 4).blk t).view.emb (ix2 q k)) = _
    have e : ((cfg0.win 4).blk t).view.emb (ix2 q k) = ix2 q k := by
      funext a; apply Fin.ext
      match a with
      | ⟨0, _⟩ => show win0_4.index t (0 : Fin 2) * 1024 + 1 * q.val = q.val; omega
      | ⟨1, _⟩ => show win0_4.index t (1 : Fin 2) * 1024 + 1 * k.val = k.val; omega
    rw [e]; exact seg1_apply m c q k
  · intro k
    have hk := k.isLt
    show V m c main_v7 (((cfg0.win 5).blk t).view.emb (ix2 q k)) = _
    have e : ((cfg0.win 5).blk t).view.emb (ix2 q k) = ix2 q k := by
      funext a; apply Fin.ext
      match a with
      | ⟨0, _⟩ => show win0_5.index t (0 : Fin 2) * 1024 + 1 * q.val = q.val; omega
      | ⟨1, _⟩ => show win0_5.index t (1 : Fin 2) * 1024 + 1 * k.val = k.val; omega
    rw [e]; exact seg2_apply m c q k
  · show V m c main_v4 (((cfg0.win 6).blk t).view.emb (ix2 (0 : Fin 1) q)) = _
    have e : ((cfg0.win 6).blk t).view.emb (ix2 (0 : Fin 1) q) = ix2 (0 : Fin 1) q := by
      funext a; apply Fin.ext
      match a with
      | ⟨0, _⟩ => show win0_6.index t (0 : Fin 2) * 1 + 1 * 0 = 0; omega
      | ⟨1, _⟩ => show win0_6.index t (1 : Fin 2) * 1024 + 1 * q.val = q.val; omega
    rw [e]; exact bias_apply m c q

/-! ## The blocks tile the output -/

/-- An index of the output is in point t's block iff its row is one of the tile's 512 rows (and its column any). -/
theorem mem_blk (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v11).slice (win0_7.rect t)).set ↔ _
  rw [View.set_slice_whole, Rect.mem_set_unit]
  exact Iff.rfl

theorem row_block_onto : ∀ q0 : Fin 16, ∃ t : Fin cfg0.N, win0_7.index t = ![q0.val, 0] :=
  (by decide +kernel : ∀ q0 : Fin 16, ∃ t : Fin grid0.N, win0_7.index t = ![q0.val, 0])

theorem cover (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, ht⟩ := row_block_onto ⟨(i 0).val / 512, by omega⟩
  have q0 : win0_7.index t (0 : Fin 2) = (i 0).val / 512 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

include hX hY hZ hW hβ in
/-- THE OUTPUT ARRAY after the region is the flat layer. -/
theorem final (c : Dev nD) : (dats m 0 c).arrAt 7 cfg0.N = flatLayer m c :=
  (dats m 0 c).arrAt_eq_of_cover 7 (flatLayer m c) (fun t _ => flushed_eq m hX hY hZ hW hβ c t) cover

/-! ## The last host line -/

include hX hY hZ hW hβ in
/-- The result buffer after the whole program: the output array viewed [4, 2048, 1024], which is the layer. -/
theorem result (c : Dev nD) :
    Pipeline.afterTail₀ cfgs (dats m) 0 (V0 m) [hostOps1] c main_v12
      = hyper (argX m c) (argY m c) (argZ m c) (argW m c) (argB m c) := by
  unfold Pipeline.afterTail₀
  show StableHlo.after hostOps1 _ (Proc.devRef .tc main_v12) = _
  after_results
  rw [Pipeline.withArrays_arr spec0 launch0.win.arr_inj c _ _ 7, final m hX hY hZ hW hβ c]
  exact unflatten _ _ _ _ _ _

include hX hY hZ hW hβ in
/-- THE RUN: the device program terminates with its result at the layer of its arguments, the arguments unchanged. -/
theorem run : θ_run defs (onTc (τ := τ) (main (F := Ideal))) ⟨m, fun _ => 0, ρ⟩ fun r => ∀ c : Dev nD,
      r.2.mem ((c.tc : Thread nD τ).loc main_v12)
        = hyper (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v12 (Pipeline.mem_restRefs_of main_v12 (by decide) (by decide))).trans (result m hX hY hZ hW hβ c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Hyper.Kern

end
-- ==== Proof.Finite.lean ====
/-
  The precondition says every entry of the five argument arrays is a real number.

  It is the conjunction, array by array, of "every |entry| is below +∞". On the extended reals |v| = max v (−v) is
  below +∞ exactly when v is neither infinity, that is, a real number.
-/
import proofs.«177009_j69303592288826_2_alg».proof.Pre_finite_inputs
import proofs.«177009_j69303592288826_2_alg».proof.Proof.LibDenseEdges
import Idealize.ShloMosaic.PureOps.Ideal
import Idealize.ShloMosaic.Lib.ReduceAll
import Idealize.ShloMosaic.Lib.ValueIdx
import Idealize.ShloMosaic.Lib.Affine

noncomputable section

namespace Cert.Hyper.Finite

open Cert.Pre_finite_inputs Cert.DenseEdges Idealize.ShloMosaic

/-- An extended real whose absolute value compares below the f32 pattern of +∞ is a real number. -/
theorem isReal_of_abs_lt (v : EReal) (h : Ideal.cmp .olt (max v (-v)) (Ideal.ofBits .f32 0x7F800000#32) = 1#1) : IsReal v := by
  have htop : Ideal.ofBits .f32 0x7F800000#32 = ⊤ := by simp [Ideal.ofBits, Ideal.ieee]
  rw [htop] at h
  have h' : BitVec.ofBool (decide (max v (-v) < ⊤)) = 1#1 := h
  have hlt : max v (-v) < ⊤ := by
    by_contra hn
    rw [decide_eq_false hn] at h'
    exact absurd h' (by decide)
  rw [max_lt_iff] at hlt
  refine isReal_of_ne ?_ (ne_of_lt hlt.1)
  intro hb
  rw [hb] at hlt
  exact absurd hlt.2 (by simp)

instance : Subsingleton (⟨0, ![]⟩ : Shape).Idx := ⟨fun a b => funext fun d => d.elim0⟩

variable [Cert.Pre_finite_inputs.Facts]

/-- Under the precondition all five arrays are real-valued. -/
theorem all_real (a0 a1 a2 : FVec Ideal S4x2048x1024 .f32) (a3 : FVec Ideal S16384x3072 .f32) (a4 : FVec Ideal S16384 .f32)
    (h : fn (F := Ideal) a0 a1 a2 a3 a4 = fun _ => 1#1) :
    (∀ i, IsReal (a0 i)) ∧ (∀ i, IsReal (a1 i)) ∧ (∀ i, IsReal (a2 i)) ∧ (∀ i, IsReal (a3 i)) ∧ (∀ i, IsReal (a4 i)) := by
  have h0 := congrFun h ValueIdx.ix0
  dsimp only [fn, fn_part1] at h0
  obtain ⟨h1, hb⟩ := IntOp.andi_eq_one.mp h0
  obtain ⟨h2, hw⟩ := IntOp.andi_eq_one.mp h1
  obtain ⟨h3, hz⟩ := IntOp.andi_eq_one.mp h2
  obtain ⟨hx, hy⟩ := IntOp.andi_eq_one.mp h3
  exact ⟨fun i => isReal_of_abs_lt _ (Host.reduce_andi_all _ _ _ _ _ hx i),
    fun i => isReal_of_abs_lt _ (Host.reduce_andi_all _ _ _ _ _ hy i),
    fun i => isReal_of_abs_lt _ (Host.reduce_andi_all _ _ _ _ _ hz i),
    fun i => isReal_of_abs_lt _ (Host.reduce_andi_all _ _ _ _ _ hw i),
    fun i => isReal_of_abs_lt _ (Host.reduce_andi_all _ _ _ _ _ hb i)⟩

end Cert.Hyper.Finite

end
-- ==== Proof.lean ====
/-
  A hypernetwork layer: the device program and its reference compute one function of (x, y, z, W, β).

  x, y, z are [4, 2048, 1024] arrays, W is [16384, 3072], β is [16384]. Output feature d owns the 16 consecutive rows
  16d + k of W and entries of β. For a sample (b, l) the reference joins x, y, z into one vector of 3072 entries,
  multiplies it with every row of W, adds β, sums each feature's 16 results and multiplies by x[b,l,d] · y[b,l,d]:

      out[b,l,d] = ( ∑_k ( ⟨[x|y|z][b,l,·], W[16d+k,·]⟩ + β[16d+k] ) ) · ( x[b,l,d] · y[b,l,d] ).

  The device program sums each feature's 16 rows of W and 16 entries of β first, cuts the summed weights into the three
  column blocks that meet x, y and z, and then, on tiles of 512 flat rows, forms the three products, adds the summed
  bias and multiplies by x · y. Summing the rows before or after the products is the same by distributivity of a
  product over a finite sum, which on the extended reals holds when every factor is a real number: the precondition
  (all inputs finite) gives exactly that, and the value claim uses it.

  The modules: Hyper (the layer as one function; a sum over the joined columns split into its three segments),
  LibSumRowsFirst (rows summed before the products or after them: the law that needs real-valued data), Layouts (the
  arrays both programs build, read at an index), RefValue (the reference is the layer), Flat (the layer on flat rows),
  KernelBody (one tile, entry by entry), KernelValue (what the device program leaves), Finite (the precondition makes
  every entry real); LibDenseEdges, LibBlockSum, LibRowsTimesRows and LibRelayout are general lemmas about real-valued
  extended reals, block sums, products contracting both operands' second axis, and row-major views.
  Both programs' runs and the device program's frames come from the generated modules; the ledger of the
  idealization is empty, so that conjunct is `True`.
-/
import proofs.«177009_j69303592288826_2_alg».proof.Defs
import proofs.«177009_j69303592288826_2_alg».proof.Proof.Gen.Kernel
import proofs.«177009_j69303592288826_2_alg».proof.Proof.Gen.Kernel.Skeleton
import proofs.«177009_j69303592288826_2_alg».proof.Proof.Gen.Kernel.Launch
import proofs.«177009_j69303592288826_2_alg».proof.Proof.Gen.Kernel.Points
import proofs.«177009_j69303592288826_2_alg».proof.Proof.Gen.Kernel.Frame
import proofs.«177009_j69303592288826_2_alg».proof.Proof.Gen.KernelIdeal
import proofs.«177009_j69303592288826_2_alg».proof.Proof.Gen.KernelIdeal.Skeleton
import proofs.«177009_j69303592288826_2_alg».proof.Proof.Gen.KernelIdeal.Launch
import proofs.«177009_j69303592288826_2_alg».proof.Proof.Gen.KernelIdeal.Points
import proofs.«177009_j69303592288826_2_alg».proof.Proof.Gen.KernelIdeal.Frame
import proofs.«177009_j69303592288826_2_alg».proof.Proof.Gen.ReferenceIdeal
import proofs.«177009_j69303592288826_2_alg».proof.Proof.Gen.Pre_finite_inputs
import proofs.«177009_j69303592288826_2_alg».proof.Proof.Gen.ReferenceIdeal.Run
import proofs.«177009_j69303592288826_2_alg».proof.Proof.Gen.ReferenceIdeal.Read
import proofs.«177009_j69303592288826_2_alg».proof.Proof.RefValue
import proofs.«177009_j69303592288826_2_alg».proof.Proof.KernelValue
import proofs.«177009_j69303592288826_2_alg».proof.Proof.Finite
import Idealize.ShloMosaic.Adequacy
import Idealize.ShloMosaic.Init

noncomputable section

namespace Cert.Proof

open Idealize.ShloMosaic Idealize.SL.Sem

/-- The word-level device program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the layer of their (agreeing, real-valued) arguments in the result. -/
theorem algebraic : Cert.algebraic_KernelIdeal_ReferenceIdeal := by
  intro m ρ m' ρ' hpre hagree
  have hr := fun c => Cert.Hyper.Finite.all_real _ _ _ _ _ (hpre c)
  refine ⟨_, Cert.Hyper.Kern.run m ρ (fun c => (hr c).1) (fun c => (hr c).2.1) (fun c => (hr c).2.2.1)
    (fun c => (hr c).2.2.2.1) (fun c => (hr c).2.2.2.2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.Hyper.Ref.ref_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
